-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S4 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x4 .f32) (main_arg6 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x4 .f32 := Host.absf main_arg5
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x4 : Shape := ⟨2, ![100000, 4]⟩
abbrev S10000x4 : Shape := ⟨2, ![10000, 4]⟩
abbrev S1700000x4 : Shape := ⟨2, ![1700000, 4]⟩
abbrev S1x4 : Shape := ⟨2, ![1, 4]⟩
abbrev S64x4 : Shape := ⟨2, ![64, 4]⟩
abbrev S100000x1 : Shape := ⟨2, ![100000, 1]⟩
abbrev S64 : Shape := ⟨1, ![64]⟩
abbrev S64x1 : Shape := ⟨2, ![64, 1]⟩

abbrev nBuf : Space → Nat
  | .hbm => 116
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x4, .f32⟩
  | .hbm, ⟨6, _⟩ => ⟨S4, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x4, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x4, .f32⟩
  | .hbm, ⟨76, _⟩ => ⟨S1700000x1, .f32⟩
  | .hbm, ⟨77, _⟩ => ⟨S1700000x4, .f32⟩
  | .hbm, ⟨78, _⟩ => ⟨S1700000x4, .f32⟩
  | .hbm, ⟨79, _⟩ => ⟨S_, .f32⟩
  | .hbm, ⟨80, _⟩ => ⟨S100000x4, .f32⟩
  | .hbm, ⟨81, _⟩ => ⟨S1700000x1, .i32⟩
  | .hbm, ⟨82, _⟩ => ⟨S100000x4, .f32⟩
  | .hbm, ⟨83, _⟩ => ⟨S1x4, .f32⟩
  | .hbm, ⟨84, _⟩ => ⟨S100000x4, .f32⟩
  | .hbm, ⟨85, _⟩ => ⟨S100000x4, .f32⟩
  | .hbm, ⟨86, _⟩ => ⟨S_, .f32⟩
  | .hbm, ⟨87, _⟩ => ⟨S64x4, .f32⟩
  | .hbm, ⟨88, _⟩ => ⟨S100000x1, .i32⟩
  | .hbm, ⟨89, _⟩ => ⟨S64x4, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S64, .f32⟩
  | .hbm, ⟨94, _⟩ => ⟨S100000x1, .i32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x4, .f32⟩
  | .hbm, ⟨101, _⟩ => ⟨S64x4, .f32⟩
  | .hbm, ⟨102, _⟩ => ⟨S_, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x4, .f32⟩
  | .hbm, ⟨109, _⟩ => ⟨S64x4, .f32⟩
  | .hbm, ⟨110, _⟩ => ⟨S64x4, .f32⟩
  | .hbm, ⟨111, _⟩ => ⟨S_, .f32⟩
  | .hbm, ⟨112, _⟩ => ⟨S64, .f32⟩
  | .hbm, ⟨113, _⟩ => ⟨S64x1, .f32⟩
  | .hbm, ⟨114, _⟩ => ⟨S64x4, .f32⟩
  | .hbm, ⟨115, _⟩ => ⟨S64x4, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x4, .f32⟩
  | .local _ .vmem, ⟨13, _⟩ => ⟨S10000x4, .f32⟩
  | .local _ .vmem, ⟨14, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S1700000x1_S1700000x4_0_1 : S1700000x1.BroadcastsInDim S1700000x4 (![0, 1] : Fin 2 → Fin S1700000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S64x4 : S_.BroadcastsInDim S64x4 (![] : Fin 0 → Fin S64x4.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  reducesTo_S64x4_S64_d1 : S64x4.ReducesTo [1] S64
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x4_S10000x4_1_0_0_1_n_n_wf : DotDims.WF S10000x128 S128x4 S10000x4 [1] [0] [0] [1] [] []
  gather_S100000x4_S1700000x1_S1700000x4_1_0_n_n_0_1_14_wf : GatherDims.WF S100000x4 S1700000x1 S1700000x4 [1] [0] [] [0] [] 1 ![1, 4]
  scatter_S100000x4_S1700000x1_S1700000x4_1_0_0_1_wf : ScatterDims.WF S100000x4 S1700000x1 S1700000x4 [1] [0] [0] 1
  scatter_S64x4_S100000x1_S100000x4_1_0_0_1_wf : ScatterDims.WF S64x4 S100000x1 S100000x4 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf
def scatter_S64x4_S100000x1_S100000x4_1_0_0_1 : ScatterDims S64x4 S100000x1 S100000x4 where
  updateWindowDims := [1]
  insertedWindowDims := [0]
  scatterDimsToOperandDims := [0]
  indexVectorDim := 1
  wf := scatter_S64x4_S100000x1_S100000x4_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x4 : Shape := ⟨2, ![100000, 4]⟩
abbrev S1700000x4 : Shape := ⟨2, ![1700000, 4]⟩
abbrev S1x4 : Shape := ⟨2, ![1, 4]⟩
abbrev S64x4 : Shape := ⟨2, ![64, 4]⟩
abbrev S100000x1 : Shape := ⟨2, ![100000, 1]⟩
abbrev S64 : Shape := ⟨1, ![64]⟩
abbrev S64x1 : Shape := ⟨2, ![64, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x4, .f32⟩
  | .hbm, ⟨6, _⟩ => ⟨S4, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x4, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x4, .f32⟩
  | .hbm, ⟨84, _⟩ => ⟨S1700000x1, .f32⟩
  | .hbm, ⟨85, _⟩ => ⟨S1700000x4, .f32⟩
  | .hbm, ⟨86, _⟩ => ⟨S1700000x4, .f32⟩
  | .hbm, ⟨87, _⟩ => ⟨S_, .f32⟩
  | .hbm, ⟨88, _⟩ => ⟨S100000x4, .f32⟩
  | .hbm, ⟨89, _⟩ => ⟨S1700000x1, .i32⟩
  | .hbm, ⟨90, _⟩ => ⟨S100000x4, .f32⟩
  | .hbm, ⟨91, _⟩ => ⟨S1x4, .f32⟩
  | .hbm, ⟨92, _⟩ => ⟨S100000x4, .f32⟩
  | .hbm, ⟨93, _⟩ => ⟨S100000x4, .f32⟩
  | .hbm, ⟨94, _⟩ => ⟨S_, .f32⟩
  | .hbm, ⟨95, _⟩ => ⟨S64x4, .f32⟩
  | .hbm, ⟨96, _⟩ => ⟨S100000x1, .i32⟩
  | .hbm, ⟨97, _⟩ => ⟨S64x4, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S64, .f32⟩
  | .hbm, ⟨102, _⟩ => ⟨S100000x1, .i32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x4, .f32⟩
  | .hbm, ⟨109, _⟩ => ⟨S64x4, .f32⟩
  | .hbm, ⟨110, _⟩ => ⟨S_, .f32⟩
  | .hbm, ⟨111, _⟩ => ⟨S64, .f32⟩
  | .hbm, ⟨112, _⟩ => ⟨S_, .f32⟩
  | .hbm, ⟨113, _⟩ => ⟨S64, .f32⟩
  | .hbm, ⟨114, _⟩ => ⟨S64, .f32⟩
  | .hbm, ⟨115, _⟩ => ⟨S64x1, .f32⟩
  | .hbm, ⟨116, _⟩ => ⟨S64x4, .f32⟩
  | .hbm, ⟨117, _⟩ => ⟨S64x4, .f32⟩
  | .hbm, ⟨118, _⟩ => ⟨S64x4, .f32⟩
  | .hbm, ⟨119, _⟩ => ⟨S_, .f32⟩
  | .hbm, ⟨120, _⟩ => ⟨S64, .f32⟩
  | .hbm, ⟨121, _⟩ => ⟨S64x1, .f32⟩
  | .hbm, ⟨122, _⟩ => ⟨S64x4, .f32⟩
  | .hbm, ⟨123, _⟩ => ⟨S64x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_cst_19 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x4_0_1 : S1700000x1.BroadcastsInDim S1700000x4 (![0, 1] : Fin 2 → Fin S1700000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S64x4 : S_.BroadcastsInDim S64x4 (![] : Fin 0 → Fin S64x4.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  reducesTo_S64x4_S64_d1 : S64x4.ReducesTo [1] S64
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x4_S100000x4_1_0_0_1_n_n_wf : DotDims.WF S100000x128 S128x4 S100000x4 [1] [0] [0] [1] [] []
  gather_S100000x4_S1700000x1_S1700000x4_1_0_n_n_0_1_14_wf : GatherDims.WF S100000x4 S1700000x1 S1700000x4 [1] [0] [] [0] [] 1 ![1, 4]
  scatter_S100000x4_S1700000x1_S1700000x4_1_0_0_1_wf : ScatterDims.WF S100000x4 S1700000x1 S1700000x4 [1] [0] [0] 1
  scatter_S64x4_S100000x1_S100000x4_1_0_0_1_wf : ScatterDims.WF S64x4 S100000x1 S100000x4 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf
def scatter_S64x4_S100000x1_S100000x4_1_0_0_1 : ScatterDims S64x4 S100000x1 S100000x4 where
  updateWindowDims := [1]
  insertedWindowDims := [0]
  scatterDimsToOperandDims := [0]
  indexVectorDim := 1
  wf := scatter_S64x4_S100000x1_S100000x4_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The kernel program's run with its result named.

  @main is eight segments: three stretches of host operations, the first product's region, a stretch of host
  operations, the bias-and-activation region, the second product's region, and a last stretch of host operations.
  Every weakly fair execution runs them in order; at each boundary every unscoped buffer holds the contents the
  fold `W0 … W8` names. After the last stretch the result buffer therefore holds `W8` at the result's reference, and
  every argument holds what it was launched with.
-/
import proofs.«172802_j87187836109058_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v85) = W8 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v85 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.Gcn.KernelRun

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.HostStretches.lean ====
/-
  The host operations between the regions, read from an arbitrary starting contents.

  The kernel program's host lines are, operation for operation, the reference's own lines: the edge lists with the
  self loops appended, the degree, the symmetric normalisation `norm` (lines %0 … %29); for a product `h` the messages
  `h[src] · norm`, summed into their target rows (lines %31 … %43 and again %47 … %59); and the pooling and the softmax
  (lines %60 … %85). Each stretch is read here from ANY contents `W` of the buffers before it: its result is the
  reference's stage function (the reference's lines composed) of what `W` holds at the buffers the stretch reads, and a
  buffer the stretch does not write keeps what `W` holds. Nothing here opens a gather, a scatter or the softmax: both
  sides apply the same operations to the same values.

  The three lines of the outlined `where` (the inverse square root of the degree where the degree is positive, zero
  elsewhere) read and write their buffers through typed references; a value written through one and read back through
  it is the value, and a typed reference to a buffer of the stated type transports nothing.
-/
import proofs.«172802_j87187836109058_1_alg».proof.Proof.Gen.KernelIdeal.Frame
import proofs.«172802_j87187836109058_1_alg».proof.Proof.RefRead
import proofs.«172802_j87187836109058_1_alg».proof.Proof.LibTypedRef
import proofs.«172802_j87187836109058_1_alg».proof.Proof.LibResultsInside
import Idealize.ShloMosaic.Lib.StableHlo.Run

noncomputable section

namespace Cert.Gcn.Host

open Cert.KernelIdeal Cert.KernelIdeal.Gen Idealize.ShloMosaic Idealize.ShloMosaic.TcCoe Idealize.SL.Sem Idealize.ShloMosaic.StableHlo
open Cert.ReferenceIdeal.ReadP

variable (W : Valuation τ sig (Elt Ideal))

/-! ## Typed references that transport nothing -/

theorem ofBuf_main_v12 (h1 : main_v12.ty = (⟨S100000, .i1⟩ : BufTy)) (h2 : main_v12.space ≠ .host) (h3 : main_v12.isScoped = false)
    (v : main_v12.ty.Contents (Elt Ideal)) :
    (TRef.of (T := ⟨S100000, .i1⟩) main_v12 h1 h2 h3).ofBuf v = v := rfl
theorem ofBuf_main_v13 (h1 : main_v13.ty = (⟨S100000, .f32⟩ : BufTy)) (h2 : main_v13.space ≠ .host) (h3 : main_v13.isScoped = false)
    (v : main_v13.ty.Contents (Elt Ideal)) :
    (TRef.of (T := ⟨S100000, .f32⟩) main_v13 h1 h2 h3).ofBuf v = v := rfl
theorem ofBuf_main_cst_2 (h1 : main_cst_2.ty = (⟨S_, .f32⟩ : BufTy)) (h2 : main_cst_2.space ≠ .host) (h3 : main_cst_2.isScoped = false)
    (v : main_cst_2.ty.Contents (Elt Ideal)) :
    (TRef.of (T := ⟨S_, .f32⟩) main_cst_2 h1 h2 h3).ofBuf v = v := rfl
theorem toBuf_main_v14 (h1 : main_v14.ty = (⟨S100000, .f32⟩ : BufTy)) (h2 : main_v14.space ≠ .host) (h3 : main_v14.isScoped = false)
    (v : (⟨S100000, .f32⟩ : BufTy).Contents (Elt Ideal)) :
    (TRef.of (T := ⟨S100000, .f32⟩) main_v14 h1 h2 h3).toBuf v = v := rfl

/-! ## Before the first product: the edge lists, the degree, the normalisation -/

set_option maxHeartbeats 4000000 in
/-- The source list with the self loops appended, after the first stretch, is the reference's. -/
theorem first_src : after hostOps0 W (Proc.devRef .tc main_v3) = val_main_v3 (F := Ideal) (W (Proc.devRef .tc main_arg1)) := by
  dsimp only [hostOps0]; after_results_simp; results_inside
  dsimp only [val_main_v3, val_main_v2, val_main_v1, val_main_v0]
  first | done | rfl

set_option maxHeartbeats 4000000 in
/-- The target list with the self loops appended, after the first stretch, is the reference's. -/
theorem first_dst : after hostOps0 W (Proc.devRef .tc main_v6) = val_main_v6 (F := Ideal) (W (Proc.devRef .tc main_arg1)) := by
  dsimp only [hostOps0]; after_results_simp; results_inside
  dsimp only [val_main_v6, val_main_v5, val_main_v4, val_main_v3, val_main_v2, val_main_v1, val_main_v0]
  first | done | rfl

set_option maxHeartbeats 4000000 in
/-- Where the degree is positive, after the first stretch, is the reference's. -/
theorem first_pos : after hostOps0 W (Proc.devRef .tc main_v12) = val_main_v12 (F := Ideal) (W (Proc.devRef .tc main_arg1)) := by
  dsimp only [hostOps0]; after_results_simp; results_inside
  dsimp only [val_main_v12, val_main_v11, val_main_cst_1, val_main_v10, val_main_v9, val_main_v8, val_main_cst_0, val_main_v7, val_main_cst, val_main_v6, val_main_v5, val_main_v4, val_main_v3, val_main_v2, val_main_v1, val_main_v0]
  first | done | rfl

set_option maxHeartbeats 4000000 in
/-- The inverse square root of the degree, after the first stretch, is the reference's. -/
theorem first_rsq : after hostOps0 W (Proc.devRef .tc main_v13) = val_main_v13 (F := Ideal) (W (Proc.devRef .tc main_arg1)) := by
  dsimp only [hostOps0]; after_results_simp; results_inside
  dsimp only [val_main_v13, val_main_v12, val_main_v11, val_main_cst_1, val_main_v10, val_main_v9, val_main_v8, val_main_cst_0, val_main_v7, val_main_cst, val_main_v6, val_main_v5, val_main_v4, val_main_v3, val_main_v2, val_main_v1, val_main_v0]
  first | done | rfl

set_option maxHeartbeats 4000000 in
/-- The zero the `where` falls back to. -/
theorem first_zero : after hostOps0 W (Proc.devRef .tc main_cst_2) = val_main_cst_2 (F := Ideal) := by
  dsimp only [hostOps0]; after_results_simp; results_inside
  dsimp only [val_main_cst_2]
  first | done | rfl

set_option maxHeartbeats 4000000 in
/-- The `where`, from any contents holding the reference's comparison, inverse square root and zero. -/
theorem where_deg (x1 : (⟨Cert.ReferenceIdeal.S2x1600000, .i32⟩ : BufTy).Contents (Elt Ideal)) (h12 : W (Proc.devRef .tc main_v12) = val_main_v12 (F := Ideal) x1)
    (h13 : W (Proc.devRef .tc main_v13) = val_main_v13 (F := Ideal) x1) (hc : W (Proc.devRef .tc main_cst_2) = val_main_cst_2 (F := Ideal)) :
    after hostOps0_1 W (Proc.devRef .tc main_v14) = val_main_v14 (F := Ideal) x1 := by
  dsimp only [hostOps0_1]; after_results_simp
  simp only [TRef.ofBuf_toBuf]
  rw [toBuf_main_v14, ofBuf_main_v12, ofBuf_main_v13, ofBuf_main_cst_2]
  rw [h12, h13, hc]
  dsimp only [val_main_v14, val_main_call0_v1, val_main_call0_v0]
  first | done | rfl

theorem where_keeps_main_v3 : after hostOps0_1 W (Proc.devRef .tc main_v3) = W (Proc.devRef .tc main_v3) := by
  dsimp only [hostOps0_1]; after_results_simp
theorem where_keeps_main_v6 : after hostOps0_1 W (Proc.devRef .tc main_v6) = W (Proc.devRef .tc main_v6) := by
  dsimp only [hostOps0_1]; after_results_simp

set_option maxHeartbeats 4000000 in
/-- The per-edge normalisation, from any contents holding the reference's scaled degree and edge lists. -/
theorem norm_of (x1 : (⟨Cert.ReferenceIdeal.S2x1600000, .i32⟩ : BufTy).Contents (Elt Ideal)) (h14 : W (Proc.devRef .tc main_v14) = val_main_v14 (F := Ideal) x1)
    (h3 : W (Proc.devRef .tc main_v3) = val_main_v3 (F := Ideal) x1) (h6 : W (Proc.devRef .tc main_v6) = val_main_v6 (F := Ideal) x1) :
    after hostOps0_2 W (Proc.devRef .tc main_v29) = val_main_v29 (F := Ideal) x1 := by
  dsimp only [hostOps0_2]; after_results_simp; rw [h14, h3, h6]
  dsimp only [val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  first | done | rfl

/-- The three stretches before the first region, in order, from `W`. -/
abbrev pre : Valuation τ sig (Elt Ideal) := after hostOps0_2 (after hostOps0_1 (after hostOps0 W))

set_option maxHeartbeats 4000000 in
/-- The source list with the self loops appended is the reference's. -/
theorem pre_src : pre W (Proc.devRef .tc main_v3) = val_main_v3 (F := Ideal) (W (Proc.devRef .tc main_arg1)) := by
  dsimp only [pre, hostOps0, hostOps0_1, hostOps0_2]; after_results_simp; rfl

set_option maxHeartbeats 4000000 in
/-- The target list with the self loops appended is the reference's. -/
theorem pre_dst : pre W (Proc.devRef .tc main_v6) = val_main_v6 (F := Ideal) (W (Proc.devRef .tc main_arg1)) := by
  dsimp only [pre, hostOps0, hostOps0_1, hostOps0_2]; after_results_simp; rfl

/-- The per-edge normalisation is the reference's: the three stretches one after the other. -/
theorem pre_norm : pre W (Proc.devRef .tc main_v29) = val_main_v29 (F := Ideal) (W (Proc.devRef .tc main_arg1)) :=
  norm_of (after hostOps0_1 (after hostOps0 W)) (W (Proc.devRef .tc main_arg1))
    (where_deg (after hostOps0 W) (W (Proc.devRef .tc main_arg1)) (first_pos W) (first_rsq W) (first_zero W))
    ((where_keeps_main_v3 (after hostOps0 W)).trans (first_src W))
    ((where_keeps_main_v6 (after hostOps0 W)).trans (first_dst W))

set_option maxHeartbeats 4000000 in
theorem pre_keeps_main_arg0 : pre W (Proc.devRef .tc main_arg0) = W (Proc.devRef .tc main_arg0) := by
  dsimp only [pre, hostOps0, hostOps0_1, hostOps0_2]; after_results_simp
set_option maxHeartbeats 4000000 in
theorem pre_keeps_main_arg1 : pre W (Proc.devRef .tc main_arg1) = W (Proc.devRef .tc main_arg1) := by
  dsimp only [pre, hostOps0, hostOps0_1, hostOps0_2]; after_results_simp
set_option maxHeartbeats 4000000 in
theorem pre_keeps_main_arg2 : pre W (Proc.devRef .tc main_arg2) = W (Proc.devRef .tc main_arg2) := by
  dsimp only [pre, hostOps0, hostOps0_1, hostOps0_2]; after_results_simp
set_option maxHeartbeats 4000000 in
theorem pre_keeps_main_arg3 : pre W (Proc.devRef .tc main_arg3) = W (Proc.devRef .tc main_arg3) := by
  dsimp only [pre, hostOps0, hostOps0_1, hostOps0_2]; after_results_simp
set_option maxHeartbeats 4000000 in
theorem pre_keeps_main_arg4 : pre W (Proc.devRef .tc main_arg4) = W (Proc.devRef .tc main_arg4) := by
  dsimp only [pre, hostOps0, hostOps0_1, hostOps0_2]; after_results_simp
set_option maxHeartbeats 4000000 in
theorem pre_keeps_main_arg5 : pre W (Proc.devRef .tc main_arg5) = W (Proc.devRef .tc main_arg5) := by
  dsimp only [pre, hostOps0, hostOps0_1, hostOps0_2]; after_results_simp
set_option maxHeartbeats 4000000 in
theorem pre_keeps_main_arg6 : pre W (Proc.devRef .tc main_arg6) = W (Proc.devRef .tc main_arg6) := by
  dsimp only [pre, hostOps0, hostOps0_1, hostOps0_2]; after_results_simp

/-! ## Between the first product and the activation: the first aggregation, and the bias as a row -/

section Mid
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x4, .f32⟩ : BufTy).Contents (Elt Ideal)) (x6 : (⟨Cert.ReferenceIdeal.S4, .f32⟩ : BufTy).Contents (Elt Ideal))

set_option maxHeartbeats 4000000 in
/-- The messages of the first layer summed into their target rows: the reference's aggregate, when `W` holds the
    reference's product, edge lists and normalisation. -/
theorem mid_agg (h30 : W (Proc.devRef .tc main_v30) = val_main_v30 (F := Ideal) x0 x3)
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    after hostOps1 W (Proc.devRef .tc main_v43) = val_main_v43 (F := Ideal) x0 x1 x3 := by
  dsimp only [hostOps1]; after_results_simp; rw [h30, h3, h6, h29]
  dsimp only [val_main_v43, val_main_v42, val_main_v41, val_main_cst_8, val_main_v40, val_main_v39, val_main_v38, val_main_v37, val_main_v36, val_main_v35, val_main_v34, val_main_v33, val_main_c_7, val_main_v32, val_main_v31, val_main_c_6]
  first | done | rfl

set_option maxHeartbeats 4000000 in
/-- The bias as a one-row array: the bias vector cast to 1 × 128. -/
theorem mid_bias : after hostOps1 W (Proc.devRef .tc main_v44) = shapeCast S1x128 (W (Proc.devRef .tc main_arg4)) shapeCasts_S128_S1x128 := by
  dsimp only [hostOps1]; after_results_simp; rfl

set_option maxHeartbeats 4000000 in
theorem hostOps1_keeps_main_v3 : after hostOps1 W (Proc.devRef .tc main_v3) = W (Proc.devRef .tc main_v3) := by
  dsimp only [hostOps1]; after_results_simp
set_option maxHeartbeats 4000000 in
theorem hostOps1_keeps_main_v6 : after hostOps1 W (Proc.devRef .tc main_v6) = W (Proc.devRef .tc main_v6) := by
  dsimp only [hostOps1]; after_results_simp
set_option maxHeartbeats 4000000 in
theorem hostOps1_keeps_main_v29 : after hostOps1 W (Proc.devRef .tc main_v29) = W (Proc.devRef .tc main_v29) := by
  dsimp only [hostOps1]; after_results_simp
set_option maxHeartbeats 4000000 in
theorem hostOps1_keeps_main_arg2 : after hostOps1 W (Proc.devRef .tc main_arg2) = W (Proc.devRef .tc main_arg2) := by
  dsimp only [hostOps1]; after_results_simp
set_option maxHeartbeats 4000000 in
theorem hostOps1_keeps_main_arg5 : after hostOps1 W (Proc.devRef .tc main_arg5) = W (Proc.devRef .tc main_arg5) := by
  dsimp only [hostOps1]; after_results_simp
set_option maxHeartbeats 4000000 in
theorem hostOps1_keeps_main_arg6 : after hostOps1 W (Proc.devRef .tc main_arg6) = W (Proc.devRef .tc main_arg6) := by
  dsimp only [hostOps1]; after_results_simp

end Mid

/-! ## After the second product: the second aggregation, the pooling and the softmax -/

section Tail
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x4, .f32⟩ : BufTy).Contents (Elt Ideal)) (x6 : (⟨Cert.ReferenceIdeal.S4, .f32⟩ : BufTy).Contents (Elt Ideal))

set_option maxHeartbeats 16000000 in
/-- The program's result: the reference's, when `W` holds the reference's second product, edge lists, normalisation,
    output bias and graph assignment. -/
theorem tail_out (h46 : W (Proc.devRef .tc main_v46) = val_main_v52 (F := Ideal) x0 x1 x3 x4 x5)
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1)
    (ha6 : W (Proc.devRef .tc main_arg6) = x6) (ha2 : W (Proc.devRef .tc main_arg2) = x2) :
    after hostOps3 W (Proc.devRef .tc main_v85) = val_main_v91 (F := Ideal) x0 x1 x2 x3 x4 x5 x6 := by
  dsimp only [hostOps3]; after_results_simp; rw [h46, h3, h6, h29, ha6, ha2]
  dsimp only [val_main_v91, val_main_v90, val_main_v89, val_main_v88, val_main_cst_20, val_main_v87, val_main_v86, val_main_v85, val_main_v84, val_main_v83, val_main_v82, val_main_cst_19, val_main_v81, val_main_cst_18, val_main_v80, val_main_v79, val_main_v78, val_main_v77, val_main_v76, val_main_cst_17, val_main_v75, val_main_v74, val_main_v73, val_main_cst_16, val_main_v72, val_main_cst_15, val_main_v71, val_main_v70, val_main_v69, val_main_cst_14, val_main_v68, val_main_v67, val_main_v66, val_main_v65, val_main_v64, val_main_v63, val_main_cst_13, val_main_v62, val_main_v61, val_main_v60, val_main_v59, val_main_v58, val_main_v57, val_main_v56, val_main_v55, val_main_c_12, val_main_v54, val_main_v53, val_main_c_11]
  first | done | rfl

end Tail

end Cert.Gcn.Host

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Layer1Product.lean ====
/-
  The first dense layer's product, as the pipeline leaves it.

  The grid has 10 points; point `t` multiplies rows `10000·t … 10000·t + 9999` of the node features `X` (100000 × 128)
  by the whole weight matrix `W` (128 × 128) into a zero accumulator and writes the 10000 × 128 block of rows back.
  At the exact instance the change of float format before the product is the identity and the product at an entry is
  the plain sum over the contracted axis, so the block entry `(r, c)` is `∑ k, X (10000·t + r, k) · W (k, c)`: block
  `t` of the ONE whole-array function `prod X W (i, c) = ∑ k, X (i, k) · W (k, c)`. The ten row blocks tile the array
  (row `i` lies in block `i / 10000`), so the array ends holding `prod X W` — for whatever contents `V` the region is
  entered with.
-/
import proofs.«172802_j87187836109058_1_alg».proof.Proof.Gen.KernelIdeal.Frame
import proofs.«172802_j87187836109058_1_alg».proof.Proof.LibPlainDot
import Idealize.ShloMosaic.Lib.Pipeline.Value
import Idealize.ShloMosaic.Lib.ValueIdx
import Idealize.ShloMosaic.PureOps.Ideal.Laws

noncomputable section

namespace Cert.Gcn.Layer1

open Cert.KernelIdeal Cert.KernelIdeal.Gen Idealize.ShloMosaic Idealize.ShloMosaic.TcCoe Idealize.SL.Sem
open Idealize.ShloMosaic.Pipeline (Dat)
open Idealize.ShloMosaic.ValueIdx (ix2)

/-- The whole-array product: entry `(i, c)` is the sum over `k` of `X (i, k) · W (k, c)`. -/
def prod (X : S100000x128.Idx → EReal) (W : S128x128.Idx → EReal) : S100000x128.Idx → EReal :=
  fun i => ∑ k : Fin 128, X (ix2 (i 0) k) * W (ix2 k (i 1))

theorem zero_off : (![0, 0] : Fin 2 → Nat) = fun _ => 0 := funext fun a => by fin_cases a <;> rfl

/-- The body's stored value at an entry `(r, c)` of the block: the sum over `k` of the row block at `(r, k)` times the
    weights at `(k, c)`. -/
theorem block_entry (x0 : Vec Ideal S10000x128 .f32) (x1 : Vec Ideal S128x128 .f32) (j : S10000x128.Idx) :
    k0_pay1 (F := Ideal) x0 x1 j = ∑ k : Fin 128, x0 (ix2 (j 0) k) * x1 (ix2 k (j 1)) := by
  unfold k0_pay1
  refine (Cert.LibPlainDot.matmul_zero_apply dot_S10000x128_S128x128_S10000x128_1_0_0_1_n_n none 128 rfl rfl
    (truncf .bf16 x0 bitsLt_bf16_f32) (truncf .bf16 x1 bitsLt_bf16_f32) j (fun k => ix2 (j 0) k) (fun k => ix2 k (j 1)) ?_ ?_).trans rfl
  · intro q
    refine funext fun a => Fin.ext ?_
    match a with
    | ⟨0, _⟩ =>
      show (dot_S10000x128_S128x128_S10000x128_1_0_0_1_n_n.lhsIdx j q 0).val = (j 0).val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact dot_S10000x128_S128x128_S10000x128_1_0_0_1_n_n.lhsIdx_val_of_single rfl j q
  · intro q
    refine funext fun a => Fin.ext ?_
    match a with
    | ⟨0, _⟩ => exact dot_S10000x128_S128x128_S10000x128_1_0_0_1_n_n.rhsIdx_val_of_single rfl j q
    | ⟨1, _⟩ =>
      show (dot_S10000x128_S128x128_S10000x128_1_0_0_1_n_n.rhsIdx j q 1).val = (j 1).val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl

/-- The printed index maps over the grid: the row blocks of `X` and of the output sit at block row `t`, block column 0;
    the weights' one block is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the whole-array product of the region's operand arrays. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  obtain ⟨e0, e1, e2, e3, e4, e5⟩ := index_facts t
  funext j
  show k0_pay1 (F := Ideal) (iblk0 V c 0 t) (iblk0 V c 1 t) j = prod (V c main_arg0) (V c main_arg3) (((cfg0.win 2).blk t).view.emb j)
  rw [block_entry]
  unfold prod
  refine Finset.sum_congr rfl fun k _ => ?_
  have hj0 : (j 0).val < 10000 := (j 0).isLt
  have hj1 : (j 1).val < 128 := (j 1).isLt
  have hk : k.val < 128 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have a0 : iblk0 V c 0 t (ix2 (j 0) k) = V c main_arg0 (ix2 ((((cfg0.win 2).blk t).view.emb j) 0) k) :=
    congrArg (V c main_arg0) h0
  have a1 : iblk0 V c 1 t (ix2 k (j 1)) = V c main_arg3 (ix2 k ((((cfg0.win 2).blk t).view.emb j) 1)) :=
    congrArg (V c main_arg3) h1
  rw [a0, a1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row lies in the block of the point `row / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  refine ⟨⟨(i 0).val / 10000, by show (i 0).val / 10000 < grid0.N; rw [hN]; omega⟩, flush0_2 _, ?_⟩
  rw [mem_blk]
  obtain ⟨e0, e1, e2, e3, e4, e5⟩ := index_facts ⟨(i 0).val / 10000, by show (i 0).val / 10000 < grid0.N; rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- The output array after the region: the whole-array product of the operand arrays as the region found them. -/
theorem out_eq (c : Dev nD) : (dat0 V c).arrAt 2 cfg0.N = prod (V c main_arg0) (V c main_arg3) :=
  (dat0 V c).arrAt_eq_of_cover 2 (prod (V c main_arg0) (V c main_arg3)) (fun t _ => flushed_eq V c t) (cover)

end

end Cert.Gcn.Layer1

end
-- ==== Proof.Activation.lean ====
/-
  The bias and the leaky rectifier, as the pipeline leaves them.

  The grid has 10 points; point `t` takes rows `10000·t … 10000·t + 9999` of the aggregated features `A` (100000 × 128)
  and the one-row bias `B` (1 × 128), forms `v = A (i, c) + B (0, c)` and stores `v` where `v ≥ 0` and `slope · v`
  elsewhere (`slope` the 32-bit float nearest 0.01). Every operation of the body is pointwise, so the stored block is
  block `t` of the ONE whole-array function `act A B (i, c) = leaky (A (i, c) + B (0, c))`; the ten row blocks tile the
  array, which therefore ends holding `act A B` — for whatever contents `V` the region is entered with.
-/
import proofs.«172802_j87187836109058_1_alg».proof.Proof.Gen.KernelIdeal.Frame
import Idealize.ShloMosaic.Lib.Pipeline.Value
import Idealize.ShloMosaic.Lib.ValueIdx
import Idealize.ShloMosaic.Lib.ValueLayout

noncomputable section

namespace Cert.Gcn.Activation

open Cert.KernelIdeal Cert.KernelIdeal.Gen Idealize.ShloMosaic Idealize.ShloMosaic.TcCoe Idealize.SL.Sem
open Idealize.ShloMosaic.Pipeline (Dat)
open Idealize.ShloMosaic.ValueIdx (ix2)

/-- The leaky rectifier on one extended real: `v` where `v ≥ 0`, the slope word's value times `v` elsewhere. -/
def leaky (v : EReal) : EReal :=
  Scalar.select (FloatOps.cmpf (F := Ideal) (φ := .f32) .oge v (FloatOps.ofBits .f32 0x00000000#32)) v
    (FloatOps.mulf (F := Ideal) (φ := .f32) (FloatOps.ofBits .f32 0x3C23D70A#32) v)

/-- The whole-array function: entry `(i, c)` is the rectifier of `A (i, c) + B (0, c)`. -/
def act (A : S100000x128.Idx → EReal) (B : S1x128.Idx → EReal) : S100000x128.Idx → EReal :=
  fun i => leaky (FloatOps.addf (F := Ideal) (φ := .f32) (A i) (B (ix2 (0 : Fin 1) (i 1))))

theorem zero_off : (![0, 0] : Fin 2 → Nat) = fun _ => 0 := funext fun a => by fin_cases a <;> rfl

/-- The body's stored value at an entry `(r, c)` of the block: the rectifier of the block's entry plus the bias at `c`. -/
theorem block_entry (x0 : S10000x128.Idx → EReal) (x1 : S1x128.Idx → EReal) (p : Fin 10000) (q : Fin 128) :
    k1_pay1 (F := Ideal) x0 x1 (ix2 p q) = leaky (FloatOps.addf (F := Ideal) (φ := .f32) (x0 (ix2 p q)) (x1 (ix2 (0 : Fin 1) q))) := by
  unfold k1_pay1
  rw [shapeCast_self, shapeCast_self]
  have hb : broadcastTo S10000x128 x1 broadcasts_S1x128_S10000x128 (ix2 p q) = x1 (ix2 (0 : Fin 1) q) :=
    ValueIdx.broadcastTo_1b_ab_apply x1 broadcasts_S1x128_S10000x128 p q
  refine Eq.trans (b := leaky (FloatOps.addf (F := Ideal) (φ := .f32) (x0 (ix2 p q))
    (broadcastTo S10000x128 x1 broadcasts_S1x128_S10000x128 (ix2 p q)))) rfl ?_
  rw [hb]

/-- The printed index maps over the grid: the row blocks of `A` and of the output sit at block row `t`, block column 0;
    the bias's one block is the whole row. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the whole-array function of the region's operand arrays. -/
theorem flushed_eq (c : Dev nD) (t : Fin cfg1.N) :
    (dat1 V c).flushed 2 t = ((cfg1.win 2).blk t).view.read (Elt Ideal) (act (V c main_v43) (V c main_v44)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S1x128) zero_off]
  obtain ⟨e0, e1, e2, e3, e4, e5⟩ := index_facts t
  funext j
  obtain ⟨p, q, rfl⟩ : ∃ (p : Fin 10000) (q : Fin 128), j = ix2 p q := ⟨j 0, j 1, ValueIdx.eq_ix2 j⟩
  show k1_pay1 (F := Ideal) (iblk1 V c 0 t) (iblk1 V c 1 t) (ix2 p q) = act (V c main_v43) (V c main_v44) (((cfg1.win 2).blk t).view.emb (ix2 p q))
  rw [block_entry]
  unfold act
  have hp : p.val < 10000 := p.isLt
  have hq : q.val < 128 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have a0 : iblk1 V c 0 t (ix2 p q) = V c main_v43 (((cfg1.win 2).blk t).view.emb (ix2 p q)) := congrArg (V c main_v43) h0
  have a1 : iblk1 V c 1 t (ix2 (0 : Fin 1) q) = V c main_v44 (ix2 (0 : Fin 1) ((((cfg1.win 2).blk t).view.emb (ix2 p q)) 1)) :=
    congrArg (V c main_v44) h1
  rw [a0, a1]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Every row lies in the block of the point `row / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  refine ⟨⟨(i 0).val / 10000, by show (i 0).val / 10000 < grid1.N; rw [hN]; omega⟩, flush1_2 _, ?_⟩
  rw [mem_blk]
  obtain ⟨e0, e1, e2, e3, e4, e5⟩ := index_facts ⟨(i 0).val / 10000, by show (i 0).val / 10000 < grid1.N; rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e5]; omega

/-- The output array after the region: the rectified sum of the operand arrays as the region found them. -/
theorem out_eq (c : Dev nD) : (dat1 V c).arrAt 2 cfg1.N = act (V c main_v43) (V c main_v44) :=
  (dat1 V c).arrAt_eq_of_cover 2 (act (V c main_v43) (V c main_v44)) (fun t _ => flushed_eq V c t) (cover)

end

end Cert.Gcn.Activation

end
-- ==== Proof.Layer2Product.lean ====
/-
  The second dense layer's product, as the pipeline leaves it.

  The grid has 10 points; point `t` multiplies rows `10000·t … 10000·t + 9999` of the hidden features `X` (100000 × 128)
  by the whole weight matrix `W` (128 × 4) into a zero accumulator and writes the 10000 × 4 block of rows back.
  At the exact instance the change of float format before the product is the identity and the product at an entry is
  the plain sum over the contracted axis, so the block entry `(r, c)` is `∑ k, X (10000·t + r, k) · W (k, c)`: block
  `t` of the ONE whole-array function `prod X W (i, c) = ∑ k, X (i, k) · W (k, c)`. The ten row blocks tile the 100000 × 4 array
  (row `i` lies in block `i / 10000`), so the array ends holding `prod X W` — for whatever contents `V` the region is
  entered with.
-/
import proofs.«172802_j87187836109058_1_alg».proof.Proof.Gen.KernelIdeal.Frame
import proofs.«172802_j87187836109058_1_alg».proof.Proof.LibPlainDot
import Idealize.ShloMosaic.Lib.Pipeline.Value
import Idealize.ShloMosaic.Lib.ValueIdx
import Idealize.ShloMosaic.PureOps.Ideal.Laws

noncomputable section

namespace Cert.Gcn.Layer2

open Cert.KernelIdeal Cert.KernelIdeal.Gen Idealize.ShloMosaic Idealize.ShloMosaic.TcCoe Idealize.SL.Sem
open Idealize.ShloMosaic.Pipeline (Dat)
open Idealize.ShloMosaic.ValueIdx (ix2)

/-- The whole-array product: entry `(i, c)` is the sum over `k` of `X (i, k) · W (k, c)`. -/
def prod (X : S100000x128.Idx → EReal) (W : S128x4.Idx → EReal) : S100000x4.Idx → EReal :=
  fun i => ∑ k : Fin 128, X (ix2 (i 0) k) * W (ix2 k (i 1))

theorem zero_off : (![0, 0] : Fin 2 → Nat) = fun _ => 0 := funext fun a => by fin_cases a <;> rfl

/-- The body's stored value at an entry `(r, c)` of the block: the sum over `k` of the row block at `(r, k)` times the
    weights at `(k, c)`. -/
theorem block_entry (x0 : Vec Ideal S10000x128 .f32) (x1 : Vec Ideal S128x4 .f32) (j : S10000x4.Idx) :
    k2_pay1 (F := Ideal) x0 x1 j = ∑ k : Fin 128, x0 (ix2 (j 0) k) * x1 (ix2 k (j 1)) := by
  unfold k2_pay1
  rw [shapeCast_self]
  refine (Cert.LibPlainDot.matmul_zero_apply dot_S10000x128_S128x4_S10000x4_1_0_0_1_n_n none 128 rfl rfl
    (truncf .bf16 x0 bitsLt_bf16_f32) (truncf .bf16 x1 bitsLt_bf16_f32) j (fun k => ix2 (j 0) k) (fun k => ix2 k (j 1)) ?_ ?_).trans rfl
  · intro q
    refine funext fun a => Fin.ext ?_
    match a with
    | ⟨0, _⟩ =>
      show (dot_S10000x128_S128x4_S10000x4_1_0_0_1_n_n.lhsIdx j q 0).val = (j 0).val
      unfold DotDims.lhsIdx
      rw [dif_neg (show ¬(0 : Fin S10000x128.rank) ∈ dot_S10000x128_S128x4_S10000x4_1_0_0_1_n_n.lhsBatch by decide), dif_pos (show (0 : Fin S10000x128.rank) ∈ dot_S10000x128_S128x4_S10000x4_1_0_0_1_n_n.lhsNonContracting by decide)]
      rfl
    | ⟨1, _⟩ => exact dot_S10000x128_S128x4_S10000x4_1_0_0_1_n_n.lhsIdx_val_of_single rfl j q
  · intro q
    refine funext fun a => Fin.ext ?_
    match a with
    | ⟨0, _⟩ => exact dot_S10000x128_S128x4_S10000x4_1_0_0_1_n_n.rhsIdx_val_of_single rfl j q
    | ⟨1, _⟩ =>
      show (dot_S10000x128_S128x4_S10000x4_1_0_0_1_n_n.rhsIdx j q 1).val = (j 1).val
      unfold DotDims.rhsIdx
      rw [dif_neg (show ¬(1 : Fin S128x4.rank) ∈ dot_S10000x128_S128x4_S10000x4_1_0_0_1_n_n.rhsBatch by decide), dif_pos (show (1 : Fin S128x4.rank) ∈ dot_S10000x128_S128x4_S10000x4_1_0_0_1_n_n.rhsNonContracting by decide)]
      rfl

/-- The printed index maps over the grid: the row blocks of `X` and of the output sit at block row `t`, block column 0;
    the weights' one block is the whole matrix. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the whole-array product of the region's operand arrays. -/
theorem flushed_eq (c : Dev nD) (t : Fin cfg2.N) :
    (dat2 V c).flushed 2 t = ((cfg2.win 2).blk t).view.read (Elt Ideal) (prod (V c main_v45) (V c main_arg5)) := by
  show (cfg2.win 2).cut (grid2.coords t) ((dat2 V c).after 2 t) = _
  rw [after2_2]
  unfold out2_2
  rw [View.canon_unit_zero zero_off]
  simp only [View.ld_unit_zero (S := S10000x128) zero_off, View.ld_unit_zero (S := S128x4) zero_off]
  obtain ⟨e0, e1, e2, e3, e4, e5⟩ := index_facts t
  funext j
  show k2_pay1 (F := Ideal) (iblk2 V c 0 t) (iblk2 V c 1 t) j = prod (V c main_v45) (V c main_arg5) (((cfg2.win 2).blk t).view.emb j)
  rw [block_entry]
  unfold prod
  refine Finset.sum_congr rfl fun k _ => ?_
  have hj0 : (j 0).val < 10000 := (j 0).isLt
  have hj1 : (j 1).val < 4 := (j 1).isLt
  have hk : k.val < 128 := k.isLt
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 4 + 1 * (j 1).val = win2_2.index t (1 : Fin 2) * 4 + 1 * (j 1).val; omega
  have a0 : iblk2 V c 0 t (ix2 (j 0) k) = V c main_v45 (ix2 ((((cfg2.win 2).blk t).view.emb j) 0) k) :=
    congrArg (V c main_v45) h0
  have a1 : iblk2 V c 1 t (ix2 k (j 1)) = V c main_arg5 (ix2 k ((((cfg2.win 2).blk t).view.emb j) 1)) :=
    congrArg (V c main_arg5) h1
  rw [a0, a1]

/-- An index of the output array is in point `t`'s block iff each coordinate is in the block's range on its axis. -/
theorem mem_blk (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v46).slice (win2_2.rect t)).set ↔ _
  rw [View.set_slice_whole, Rect.mem_set_unit]
  exact Iff.rfl

/-- Every row lies in the block of the point `row / 10000`. -/
theorem cover (i : S100000x4.Idx) :
    ∃ t : Fin cfg2.N, (cfg2.win 2).flush t = true ∧ i ∈ ((cfg2.win 2).blk t).view.set := by
  have hi0 : (i 0).val < 100000 := (i 0).isLt
  have hi1 : (i 1).val < 4 := (i 1).isLt
  have hN : grid2.N = 10 := N_2
  refine ⟨⟨(i 0).val / 10000, by show (i 0).val / 10000 < grid2.N; rw [hN]; omega⟩, flush2_2 _, ?_⟩
  rw [mem_blk]
  obtain ⟨e0, e1, e2, e3, e4, e5⟩ := index_facts ⟨(i 0).val / 10000, by show (i 0).val / 10000 < grid2.N; rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 4 ≤ (i 1).val ∧ (i 1).val < win2_2.index _ (1 : Fin 2) * 4 + 4
    rw [e5]; omega

/-- The output array after the region: the whole-array product of the operand arrays as the region found them. -/
theorem out_eq (c : Dev nD) : (dat2 V c).arrAt 2 cfg2.N = prod (V c main_v45) (V c main_arg5) :=
  (dat2 V c).arrAt_eq_of_cover 2 (prod (V c main_v45) (V c main_arg5)) (fun t _ => flushed_eq V c t) (cover)

end

end Cert.Gcn.Layer2

end
-- ==== Proof.StageLaws.lean ====
/-
  The three regions' whole-array functions are the reference's stages.

  Index by index: the first product `∑ k, X (i, k) · W (k, c)` is the reference's `dot_general` of the same operands read at
  an entry; the rectified sum `leaky (A (i, c) + b (c))`, the bias reaching the kernel as a 1 × 128 cast of the bias
  vector, is the reference's add of the broadcast bias, compare with zero, multiply by the slope and select; and the
  second product is the reference's second `dot_general`. No law of the extended reals beyond reading both sides at an
  index is used: the two programs compute each entry by the same operations in the same order.
-/
import proofs.«172802_j87187836109058_1_alg».proof.Proof.Layer1Product
import proofs.«172802_j87187836109058_1_alg».proof.Proof.Activation
import proofs.«172802_j87187836109058_1_alg».proof.Proof.Layer2Product
import proofs.«172802_j87187836109058_1_alg».proof.Proof.RefRead
import Idealize.ShloMosaic.Lib.ValueLayout

noncomputable section

namespace Cert.Gcn.Stages

open Idealize.ShloMosaic
open Idealize.ShloMosaic.ValueIdx (ix1 ix2)
open Cert.ReferenceIdeal.ReadP

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x4, .f32⟩ : BufTy).Contents (Elt Ideal)) (x6 : (⟨Cert.ReferenceIdeal.S4, .f32⟩ : BufTy).Contents (Elt Ideal))

/-- A product of two extended reals, factor by factor. -/
theorem mul_congr {a a' b b' : EReal} (ha : a = a') (hb : b = b') : a * b = a' * b' := by rw [ha, hb]

/-- The first product, entry by entry, is the reference's. -/
theorem product1 : Cert.Gcn.Layer1.prod x0 x3 = val_main_v30 (F := Ideal) x0 x3 := by
  funext i
  rw [val_main_v30_apply]
  unfold Cert.Gcn.Layer1.prod
  refine Finset.sum_congr rfl fun k _ => ?_
  congr 1
  · exact congrArg x0 (funext fun a => by
      match a with
      | ⟨0, _⟩ => rfl
      | ⟨1, _⟩ => rfl)
  · exact congrArg x3 (funext fun a => by
      match a with
      | ⟨0, _⟩ => rfl
      | ⟨1, _⟩ => rfl)

/-- The rectified sum of the reference's aggregate and the bias row, entry by entry, is the reference's activation. -/
theorem activation :
    Cert.Gcn.Activation.act (val_main_v43 (F := Ideal) x0 x1 x3) (shapeCast Cert.KernelIdeal.S1x128 x4 Cert.KernelIdeal.Facts₀.shapeCasts_S128_S1x128)
      = val_main_v51 (F := Ideal) x0 x1 x3 x4 := by
  funext i
  obtain ⟨p, q, rfl⟩ : ∃ (p : Fin 100000) (q : Fin 128), i = ix2 p q := ⟨i 0, i 1, ValueIdx.eq_ix2 i⟩
  rw [val_main_v51_apply, val_main_v48_apply, val_main_v50_apply, val_main_v46_apply, val_main_v47_apply, val_main_v49_apply,
    val_main_cst_9_apply, val_main_cst_10_apply, val_main_v45_apply, val_main_v44_apply]
  have hi : idx_main_v44 (idx_main_v45 (ix2 p q)) = ix1 q := funext fun a => by
    match a with
    | ⟨0, _⟩ => rfl
  rw [hi]
  have hb : shapeCast Cert.KernelIdeal.S1x128 x4 Cert.KernelIdeal.Facts₀.shapeCasts_S128_S1x128 (ix2 (0 : Fin 1) q) = x4 (ix1 q) :=
    ValueIdx.shapeCast_a_1a_apply x4 Cert.KernelIdeal.Facts₀.shapeCasts_S128_S1x128 0 q
  show Cert.Gcn.Activation.leaky (FloatOps.addf (F := Ideal) (φ := .f32) (val_main_v43 (F := Ideal) x0 x1 x3 (ix2 p q))
      (shapeCast Cert.KernelIdeal.S1x128 x4 Cert.KernelIdeal.Facts₀.shapeCasts_S128_S1x128 (ix2 (0 : Fin 1) q))) = _
  rw [hb]
  rfl

/-- The second product, entry by entry, is the reference's. -/
theorem product2 : Cert.Gcn.Layer2.prod (val_main_v51 (F := Ideal) x0 x1 x3 x4) x5 = val_main_v52 (F := Ideal) x0 x1 x3 x4 x5 := by
  funext i
  rw [val_main_v52_apply]
  unfold Cert.Gcn.Layer2.prod
  refine Finset.sum_congr rfl fun k _ => ?_
  refine mul_congr (congrArg (val_main_v51 (F := Ideal) x0 x1 x3 x4) (funext fun a => ?_)) (congrArg x5 (funext fun a => ?_))
  · match a with
    | ⟨0, _⟩ => rfl
    | ⟨1, _⟩ => rfl
  · match a with
    | ⟨0, _⟩ => rfl
    | ⟨1, _⟩ => rfl

end Cert.Gcn.Stages

end
-- ==== Proof.Walk.lean ====
/-
  The kernel program's result is the reference's last stage of the arguments.

  The run's fold names the buffer contents at each of @main's boundaries, `W0` (the launch) to `W8` (the return). Walk
  it forward, holding at each boundary what the later segments read: the edge lists and the normalisation (the
  reference's stages of the edge array), the argument arrays (as launched: nothing writes them), and the current
  layer's array. A host stretch maps the reference's stages to the reference's next stages (the stretches are the
  reference's own lines); a region replaces its output array by its whole-array function of its operand arrays, which is
  the reference's next stage, and leaves every other buffer alone. At the return the result buffer holds the
  reference's last stage.
-/
import proofs.«172802_j87187836109058_1_alg».proof.Proof.Gen.KernelIdeal.Frame
import proofs.«172802_j87187836109058_1_alg».proof.Proof.HostStretches
import proofs.«172802_j87187836109058_1_alg».proof.Proof.StageLaws

set_option maxRecDepth 16384

noncomputable section

namespace Cert.Gcn.Walk

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-! ## At the first region's entry -/

theorem at3_src : W3 m ρ c (Proc.devRef .tc main_v3) = val_main_v3 (F := Ideal) (m ((c : Thread nD τ).loc main_arg1)) := Cert.Gcn.Host.pre_src (W0 m ρ c)
theorem at3_dst : W3 m ρ c (Proc.devRef .tc main_v6) = val_main_v6 (F := Ideal) (m ((c : Thread nD τ).loc main_arg1)) := Cert.Gcn.Host.pre_dst (W0 m ρ c)
theorem at3_norm : W3 m ρ c (Proc.devRef .tc main_v29) = val_main_v29 (F := Ideal) (m ((c : Thread nD τ).loc main_arg1)) := Cert.Gcn.Host.pre_norm (W0 m ρ c)
theorem at3_arg0 : W3 m ρ c (Proc.devRef .tc main_arg0) = (m ((c : Thread nD τ).loc main_arg0)) := Cert.Gcn.Host.pre_keeps_main_arg0 (W0 m ρ c)
theorem at3_arg2 : W3 m ρ c (Proc.devRef .tc main_arg2) = (m ((c : Thread nD τ).loc main_arg2)) := Cert.Gcn.Host.pre_keeps_main_arg2 (W0 m ρ c)
theorem at3_arg3 : W3 m ρ c (Proc.devRef .tc main_arg3) = (m ((c : Thread nD τ).loc main_arg3)) := Cert.Gcn.Host.pre_keeps_main_arg3 (W0 m ρ c)
theorem at3_arg4 : W3 m ρ c (Proc.devRef .tc main_arg4) = (m ((c : Thread nD τ).loc main_arg4)) := Cert.Gcn.Host.pre_keeps_main_arg4 (W0 m ρ c)
theorem at3_arg5 : W3 m ρ c (Proc.devRef .tc main_arg5) = (m ((c : Thread nD τ).loc main_arg5)) := Cert.Gcn.Host.pre_keeps_main_arg5 (W0 m ρ c)
theorem at3_arg6 : W3 m ρ c (Proc.devRef .tc main_arg6) = (m ((c : Thread nD τ).loc main_arg6)) := Cert.Gcn.Host.pre_keeps_main_arg6 (W0 m ρ c)

/-! ## After the first product -/

/-- The first region's output array is the reference's first product. -/
theorem at4_prod : W4 m ρ c (Proc.devRef .tc main_v30) = val_main_v30 (F := Ideal) (m ((c : Thread nD τ).loc main_arg0)) (m ((c : Thread nD τ).loc main_arg3)) := by
  refine (W4_arr m ρ c 2).trans ((Cert.Gcn.Layer1.out_eq (V3 m ρ) c).trans ?_)
  have e0 : V3 m ρ c main_arg0 = (m ((c : Thread nD τ).loc main_arg0)) := at3_arg0 m ρ c
  have e3 : V3 m ρ c main_arg3 = (m ((c : Thread nD τ).loc main_arg3)) := at3_arg3 m ρ c
  rw [e0, e3]
  exact Cert.Gcn.Stages.product1 _ _
theorem at4_src : W4 m ρ c (Proc.devRef .tc main_v3) = val_main_v3 (F := Ideal) (m ((c : Thread nD τ).loc main_arg1)) := (W4_of_ne m ρ c main_v3 (by decide)).trans (at3_src m ρ c)
theorem at4_dst : W4 m ρ c (Proc.devRef .tc main_v6) = val_main_v6 (F := Ideal) (m ((c : Thread nD τ).loc main_arg1)) := (W4_of_ne m ρ c main_v6 (by decide)).trans (at3_dst m ρ c)
theorem at4_norm : W4 m ρ c (Proc.devRef .tc main_v29) = val_main_v29 (F := Ideal) (m ((c : Thread nD τ).loc main_arg1)) := (W4_of_ne m ρ c main_v29 (by decide)).trans (at3_norm m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)

/-! ## At the activation region's entry -/

/-- The first aggregation is the reference's. -/
theorem at5_agg : W5 m ρ c (Proc.devRef .tc main_v43) = val_main_v43 (F := Ideal) (m ((c : Thread nD τ).loc main_arg0)) (m ((c : Thread nD τ).loc main_arg1)) (m ((c : Thread nD τ).loc main_arg3)) :=
  Cert.Gcn.Host.mid_agg (W4 m ρ c) _ _ _ (at4_prod m ρ c) (at4_src m ρ c) (at4_dst m ρ c) (at4_norm m ρ c)
/-- The bias row is the bias vector cast to 1 × 128. -/
theorem at5_bias : W5 m ρ c (Proc.devRef .tc main_v44) = shapeCast S1x128 (m ((c : Thread nD τ).loc main_arg4)) shapeCasts_S128_S1x128 :=
  (Cert.Gcn.Host.mid_bias (W4 m ρ c)).trans (by rw [at4_arg4 m ρ c])
theorem at5_src : W5 m ρ c (Proc.devRef .tc main_v3) = val_main_v3 (F := Ideal) (m ((c : Thread nD τ).loc main_arg1)) := (Cert.Gcn.Host.hostOps1_keeps_main_v3 (W4 m ρ c)).trans (at4_src m ρ c)
theorem at5_dst : W5 m ρ c (Proc.devRef .tc main_v6) = val_main_v6 (F := Ideal) (m ((c : Thread nD τ).loc main_arg1)) := (Cert.Gcn.Host.hostOps1_keeps_main_v6 (W4 m ρ c)).trans (at4_dst m ρ c)
theorem at5_norm : W5 m ρ c (Proc.devRef .tc main_v29) = val_main_v29 (F := Ideal) (m ((c : Thread nD τ).loc main_arg1)) := (Cert.Gcn.Host.hostOps1_keeps_main_v29 (W4 m ρ c)).trans (at4_norm m ρ c)
theorem at5_arg2 : W5 m ρ c (Proc.devRef .tc main_arg2) = (m ((c : Thread nD τ).loc main_arg2)) := (Cert.Gcn.Host.hostOps1_keeps_main_arg2 (W4 m ρ c)).trans (at4_arg2 m ρ c)
theorem at5_arg5 : W5 m ρ c (Proc.devRef .tc main_arg5) = (m ((c : Thread nD τ).loc main_arg5)) := (Cert.Gcn.Host.hostOps1_keeps_main_arg5 (W4 m ρ c)).trans (at4_arg5 m ρ c)
theorem at5_arg6 : W5 m ρ c (Proc.devRef .tc main_arg6) = (m ((c : Thread nD τ).loc main_arg6)) := (Cert.Gcn.Host.hostOps1_keeps_main_arg6 (W4 m ρ c)).trans (at4_arg6 m ρ c)

/-! ## After the activation -/

/-- The activation region's output array is the reference's hidden features. -/
theorem at6_act : W6 m ρ c (Proc.devRef .tc main_v45) = val_main_v51 (F := Ideal) (m ((c : Thread nD τ).loc main_arg0)) (m ((c : Thread nD τ).loc main_arg1)) (m ((c : Thread nD τ).loc main_arg3)) (m ((c : Thread nD τ).loc main_arg4)) := by
  refine (W6_arr m ρ c 2).trans ((Cert.Gcn.Activation.out_eq (V5 m ρ) c).trans ?_)
  have e0 : V5 m ρ c main_v43 = val_main_v43 (F := Ideal) (m ((c : Thread nD τ).loc main_arg0)) (m ((c : Thread nD τ).loc main_arg1)) (m ((c : Thread nD τ).loc main_arg3)) := at5_agg m ρ c
  have e1 : V5 m ρ c main_v44 = shapeCast S1x128 (m ((c : Thread nD τ).loc main_arg4)) shapeCasts_S128_S1x128 := at5_bias m ρ c
  rw [e0, e1]
  exact Cert.Gcn.Stages.activation _ _ _ _
theorem at6_src : W6 m ρ c (Proc.devRef .tc main_v3) = val_main_v3 (F := Ideal) (m ((c : Thread nD τ).loc main_arg1)) := (W6_of_ne m ρ c main_v3 (by decide)).trans (at5_src m ρ c)
theorem at6_dst : W6 m ρ c (Proc.devRef .tc main_v6) = val_main_v6 (F := Ideal) (m ((c : Thread nD τ).loc main_arg1)) := (W6_of_ne m ρ c main_v6 (by decide)).trans (at5_dst m ρ c)
theorem at6_norm : W6 m ρ c (Proc.devRef .tc main_v29) = val_main_v29 (F := Ideal) (m ((c : Thread nD τ).loc main_arg1)) := (W6_of_ne m ρ c main_v29 (by decide)).trans (at5_norm m ρ c)
theorem at6_arg2 : W6 m ρ c (Proc.devRef .tc main_arg2) = (m ((c : Thread nD τ).loc main_arg2)) := (W6_of_ne m ρ c main_arg2 (by decide)).trans (at5_arg2 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)

/-! ## After the second product -/

/-- The second product region's output array is the reference's second product. -/
theorem at7_prod : W7 m ρ c (Proc.devRef .tc main_v46) = val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ((Cert.Gcn.Layer2.out_eq (V6 m ρ) c).trans ?_)
  have e0 : V6 m ρ c main_v45 = val_main_v51 (F := Ideal) (m ((c : Thread nD τ).loc main_arg0)) (m ((c : Thread nD τ).loc main_arg1)) (m ((c : Thread nD τ).loc main_arg3)) (m ((c : Thread nD τ).loc main_arg4)) := at6_act m ρ c
  have e1 : V6 m ρ c main_arg5 = (m ((c : Thread nD τ).loc main_arg5)) := at6_arg5 m ρ c
  rw [e0, e1]
  exact Cert.Gcn.Stages.product2 _ _ _ _ _
theorem at7_src : W7 m ρ c (Proc.devRef .tc main_v3) = val_main_v3 (F := Ideal) (m ((c : Thread nD τ).loc main_arg1)) := (W7_of_ne m ρ c main_v3 (by decide)).trans (at6_src m ρ c)
theorem at7_dst : W7 m ρ c (Proc.devRef .tc main_v6) = val_main_v6 (F := Ideal) (m ((c : Thread nD τ).loc main_arg1)) := (W7_of_ne m ρ c main_v6 (by decide)).trans (at6_dst m ρ c)
theorem at7_norm : W7 m ρ c (Proc.devRef .tc main_v29) = val_main_v29 (F := Ideal) (m ((c : Thread nD τ).loc main_arg1)) := (W7_of_ne m ρ c main_v29 (by decide)).trans (at6_norm m ρ c)
theorem at7_arg2 : W7 m ρ c (Proc.devRef .tc main_arg2) = (m ((c : Thread nD τ).loc main_arg2)) := (W7_of_ne m ρ c main_arg2 (by decide)).trans (at6_arg2 m ρ c)
theorem at7_arg6 : W7 m ρ c (Proc.devRef .tc main_arg6) = (m ((c : Thread nD τ).loc main_arg6)) := (W7_of_ne m ρ c main_arg6 (by decide)).trans (at6_arg6 m ρ c)

/-! ## At the return -/

/-- The result buffer at the return holds the reference's last stage of the seven arguments. -/
theorem result : W8 m ρ c (Proc.devRef .tc main_v85)
    = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.Gcn.Host.tail_out (W7 m ρ c) _ _ _ _ _ _ _ (at7_prod m ρ c) (at7_src m ρ c) (at7_dst m ρ c) (at7_norm m ρ c) (at7_arg6 m ρ c) (at7_arg2 m ρ c)

end Cert.Gcn.Walk

end
-- ==== Proof.RefValue.lean ====
/-
  The reference program's run, with its result named by stages.

  The reference is one straight line of 117 host operations. Every weakly fair execution runs them in order and ends
  with each buffer at the operations' composed function of the launch contents, and no operation writes an argument.
  The result buffer's composed function is the last stage `val_main_v91` (each stage is one operation applied to earlier
  stages) of the seven argument arrays. It is read here piece by piece — the lines before the outlined `where`, the
  `where`, the lines up to the outlined select of the rectifier, that select, and the rest —, each piece from an
  arbitrary contents of the buffers before it: its results are the stages when the contents hold the stages it reads,
  and a buffer it does not write is kept. The two outlined functions read and write through typed references; a
  typed reference to a buffer of the stated type transports nothing.
-/
import proofs.«172802_j87187836109058_1_alg».proof.Proof.RefRead
import proofs.«172802_j87187836109058_1_alg».proof.Proof.LibTypedRef
import proofs.«172802_j87187836109058_1_alg».proof.Proof.LibResultsInside
import Idealize.ShloMosaic.Lib.StableHlo.Run

noncomputable section

namespace Cert.Gcn.Reference

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-! ## The line in five pieces -/

/-- The contents after two stretches of operations: after the second, from the contents after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The reference's operations at the exact instance. -/
abbrev line : List (HloOp τ sig (Elt Ideal)) := ops (F := Ideal)
/-- Lines %0 … %cst_2: the edge lists, the degree, its sign and inverse square root. -/
abbrev pieceA : List (HloOp τ sig (Elt Ideal)) := line.take 18
/-- The outlined `where`: the scaled degree. -/
abbrev pieceB : List (HloOp τ sig (Elt Ideal)) := (line.drop 18).take 3
/-- The normalisation, the first layer, and the rectifier's comparison and scaled copy. -/
abbrev pieceC : List (HloOp τ sig (Elt Ideal)) := (line.drop 21).take 45
/-- The outlined select of the rectifier. -/
abbrev pieceD : List (HloOp τ sig (Elt Ideal)) := (line.drop 66).take 1
/-- The second layer, the pooling and the softmax. -/
abbrev pieceE : List (HloOp τ sig (Elt Ideal)) := line.drop 67

theorem line_pieces : line = pieceA ++ (pieceB ++ (pieceC ++ (pieceD ++ pieceE))) := rfl

theorem after_line (V : Valuation τ sig (Elt Ideal)) :
    after line V = after pieceE (after pieceD (after pieceC (after pieceB (after pieceA V)))) :=
  (congrArg (fun l => after l V) line_pieces).trans (by rw [after_append, after_append, after_append, after_append])

/-- A piece as its literal list of operations. -/
macro "norm_piece" : tactic =>
  `(tactic| simp only [pieceA, pieceB, pieceC, pieceD, pieceE, line, ops, List.take_succ_cons, List.take_zero, List.drop_succ_cons, List.drop_zero])

/-! ## Typed references that transport nothing -/

theorem ofBuf_main_v12 (h1 : main_v12.ty = (⟨S100000, .i1⟩ : BufTy)) (h2 : main_v12.space ≠ .host) (h3 : main_v12.isScoped = false)
    (v : main_v12.ty.Contents (Elt Ideal)) :
    (TRef.of (T := ⟨S100000, .i1⟩) main_v12 h1 h2 h3).ofBuf v = v := rfl
theorem ofBuf_main_v13 (h1 : main_v13.ty = (⟨S100000, .f32⟩ : BufTy)) (h2 : main_v13.space ≠ .host) (h3 : main_v13.isScoped = false)
    (v : main_v13.ty.Contents (Elt Ideal)) :
    (TRef.of (T := ⟨S100000, .f32⟩) main_v13 h1 h2 h3).ofBuf v = v := rfl
theorem ofBuf_main_cst_2 (h1 : main_cst_2.ty = (⟨S_, .f32⟩ : BufTy)) (h2 : main_cst_2.space ≠ .host) (h3 : main_cst_2.isScoped = false)
    (v : main_cst_2.ty.Contents (Elt Ideal)) :
    (TRef.of (T := ⟨S_, .f32⟩) main_cst_2 h1 h2 h3).ofBuf v = v := rfl
theorem toBuf_main_v14 (h1 : main_v14.ty = (⟨S100000, .f32⟩ : BufTy)) (h2 : main_v14.space ≠ .host) (h3 : main_v14.isScoped = false)
    (v : (⟨S100000, .f32⟩ : BufTy).Contents (Elt Ideal)) :
    (TRef.of (T := ⟨S100000, .f32⟩) main_v14 h1 h2 h3).toBuf v = v := rfl
theorem ofBuf_main_v48 (h1 : main_v48.ty = (⟨S100000x128, .i1⟩ : BufTy)) (h2 : main_v48.space ≠ .host) (h3 : main_v48.isScoped = false)
    (v : main_v48.ty.Contents (Elt Ideal)) :
    (TRef.of (T := ⟨S100000x128, .i1⟩) main_v48 h1 h2 h3).ofBuf v = v := rfl
theorem ofBuf_main_v46 (h1 : main_v46.ty = (⟨S100000x128, .f32⟩ : BufTy)) (h2 : main_v46.space ≠ .host) (h3 : main_v46.isScoped = false)
    (v : main_v46.ty.Contents (Elt Ideal)) :
    (TRef.of (T := ⟨S100000x128, .f32⟩) main_v46 h1 h2 h3).ofBuf v = v := rfl
theorem ofBuf_main_v50 (h1 : main_v50.ty = (⟨S100000x128, .f32⟩ : BufTy)) (h2 : main_v50.space ≠ .host) (h3 : main_v50.isScoped = false)
    (v : main_v50.ty.Contents (Elt Ideal)) :
    (TRef.of (T := ⟨S100000x128, .f32⟩) main_v50 h1 h2 h3).ofBuf v = v := rfl
theorem toBuf_main_v51 (h1 : main_v51.ty = (⟨S100000x128, .f32⟩ : BufTy)) (h2 : main_v51.space ≠ .host) (h3 : main_v51.isScoped = false)
    (v : (⟨S100000x128, .f32⟩ : BufTy).Contents (Elt Ideal)) :
    (TRef.of (T := ⟨S100000x128, .f32⟩) main_v51 h1 h2 h3).toBuf v = v := rfl

variable (V : Valuation τ sig (Elt Ideal))

/-! ## Piece A -/

set_option maxHeartbeats 4000000 in
theorem pieceA_main_v3 : after pieceA V (Proc.devRef .tc main_v3) = val_main_v3 (F := Ideal) (V (Proc.devRef .tc main_arg1)) := by
  norm_piece; after_results_simp; results_inside
  dsimp only [val_main_v3, val_main_v2, val_main_v1, val_main_v0]
  first | done | rfl
set_option maxHeartbeats 4000000 in
theorem pieceA_main_v6 : after pieceA V (Proc.devRef .tc main_v6) = val_main_v6 (F := Ideal) (V (Proc.devRef .tc main_arg1)) := by
  norm_piece; after_results_simp; results_inside
  dsimp only [val_main_v6, val_main_v5, val_main_v4, val_main_v3, val_main_v2, val_main_v1, val_main_v0]
  first | done | rfl
set_option maxHeartbeats 4000000 in
theorem pieceA_main_v12 : after pieceA V (Proc.devRef .tc main_v12) = val_main_v12 (F := Ideal) (V (Proc.devRef .tc main_arg1)) := by
  norm_piece; after_results_simp; results_inside
  dsimp only [val_main_v12, val_main_v11, val_main_cst_1, val_main_v10, val_main_v9, val_main_v8, val_main_cst_0, val_main_v7, val_main_cst, val_main_v6, val_main_v5, val_main_v4, val_main_v3, val_main_v2, val_main_v1, val_main_v0]
  first | done | rfl
set_option maxHeartbeats 4000000 in
theorem pieceA_main_v13 : after pieceA V (Proc.devRef .tc main_v13) = val_main_v13 (F := Ideal) (V (Proc.devRef .tc main_arg1)) := by
  norm_piece; after_results_simp; results_inside
  dsimp only [val_main_v13, val_main_v12, val_main_v11, val_main_cst_1, val_main_v10, val_main_v9, val_main_v8, val_main_cst_0, val_main_v7, val_main_cst, val_main_v6, val_main_v5, val_main_v4, val_main_v3, val_main_v2, val_main_v1, val_main_v0]
  first | done | rfl
set_option maxHeartbeats 4000000 in
theorem pieceA_main_cst_2 : after pieceA V (Proc.devRef .tc main_cst_2) = val_main_cst_2 (F := Ideal) := by
  norm_piece; after_results_simp; results_inside
  dsimp only [val_main_cst_2]
  first | done | rfl
theorem pieceA_keeps_main_arg0 : after pieceA V (Proc.devRef .tc main_arg0) = V (Proc.devRef .tc main_arg0) := by
  norm_piece; after_results_simp
theorem pieceA_keeps_main_arg2 : after pieceA V (Proc.devRef .tc main_arg2) = V (Proc.devRef .tc main_arg2) := by
  norm_piece; after_results_simp
theorem pieceA_keeps_main_arg3 : after pieceA V (Proc.devRef .tc main_arg3) = V (Proc.devRef .tc main_arg3) := by
  norm_piece; after_results_simp
theorem pieceA_keeps_main_arg4 : after pieceA V (Proc.devRef .tc main_arg4) = V (Proc.devRef .tc main_arg4) := by
  norm_piece; after_results_simp
theorem pieceA_keeps_main_arg5 : after pieceA V (Proc.devRef .tc main_arg5) = V (Proc.devRef .tc main_arg5) := by
  norm_piece; after_results_simp
theorem pieceA_keeps_main_arg6 : after pieceA V (Proc.devRef .tc main_arg6) = V (Proc.devRef .tc main_arg6) := by
  norm_piece; after_results_simp

/-! ## Piece B -/

section
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x4, .f32⟩ : BufTy).Contents (Elt Ideal)) (x6 : (⟨Cert.ReferenceIdeal.S4, .f32⟩ : BufTy).Contents (Elt Ideal))

set_option maxHeartbeats 4000000 in
theorem pieceB_main_v14 (h_v12 : V (Proc.devRef .tc main_v12) = val_main_v12 (F := Ideal) x1) (h_v13 : V (Proc.devRef .tc main_v13) = val_main_v13 (F := Ideal) x1) (h_cst_2 : V (Proc.devRef .tc main_cst_2) = val_main_cst_2 (F := Ideal)) :
    after pieceB V (Proc.devRef .tc main_v14) = val_main_v14 (F := Ideal) x1 := by
  norm_piece; after_results_simp
  simp only [TRef.ofBuf_toBuf]
  rw [toBuf_main_v14, ofBuf_main_v12, ofBuf_main_v13, ofBuf_main_cst_2]
  rw [h_v12, h_v13, h_cst_2]
  dsimp only [val_main_v14, val_main_call0_v1, val_main_call0_v0]
  first | done | rfl
theorem pieceB_keeps_main_v3 : after pieceB V (Proc.devRef .tc main_v3) = V (Proc.devRef .tc main_v3) := by
  norm_piece; after_results_simp
theorem pieceB_keeps_main_v6 : after pieceB V (Proc.devRef .tc main_v6) = V (Proc.devRef .tc main_v6) := by
  norm_piece; after_results_simp
theorem pieceB_keeps_main_arg0 : after pieceB V (Proc.devRef .tc main_arg0) = V (Proc.devRef .tc main_arg0) := by
  norm_piece; after_results_simp
theorem pieceB_keeps_main_arg2 : after pieceB V (Proc.devRef .tc main_arg2) = V (Proc.devRef .tc main_arg2) := by
  norm_piece; after_results_simp
theorem pieceB_keeps_main_arg3 : after pieceB V (Proc.devRef .tc main_arg3) = V (Proc.devRef .tc main_arg3) := by
  norm_piece; after_results_simp
theorem pieceB_keeps_main_arg4 : after pieceB V (Proc.devRef .tc main_arg4) = V (Proc.devRef .tc main_arg4) := by
  norm_piece; after_results_simp
theorem pieceB_keeps_main_arg5 : after pieceB V (Proc.devRef .tc main_arg5) = V (Proc.devRef .tc main_arg5) := by
  norm_piece; after_results_simp
theorem pieceB_keeps_main_arg6 : after pieceB V (Proc.devRef .tc main_arg6) = V (Proc.devRef .tc main_arg6) := by
  norm_piece; after_results_simp

/-! ## Piece C -/

set_option maxHeartbeats 8000000 in
theorem pieceC_main_v29 (h_v14 : V (Proc.devRef .tc main_v14) = val_main_v14 (F := Ideal) x1) (h_v3 : V (Proc.devRef .tc main_v3) = val_main_v3 (F := Ideal) x1) (h_v6 : V (Proc.devRef .tc main_v6) = val_main_v6 (F := Ideal) x1) :
    after pieceC V (Proc.devRef .tc main_v29) = val_main_v29 (F := Ideal) x1 := by
  norm_piece; after_results_simp; rw [h_v14, h_v3, h_v6]
  dsimp only [val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  first | done | rfl
set_option maxHeartbeats 16000000 in
theorem pieceC_main_v46 (h_v14 : V (Proc.devRef .tc main_v14) = val_main_v14 (F := Ideal) x1) (h_v3 : V (Proc.devRef .tc main_v3) = val_main_v3 (F := Ideal) x1) (h_v6 : V (Proc.devRef .tc main_v6) = val_main_v6 (F := Ideal) x1)
    (h_a0 : V (Proc.devRef .tc main_arg0) = x0) (h_a3 : V (Proc.devRef .tc main_arg3) = x3) (h_a4 : V (Proc.devRef .tc main_arg4) = x4) :
    after pieceC V (Proc.devRef .tc main_v46) = val_main_v46 (F := Ideal) x0 x1 x3 x4 := by
  norm_piece; after_results_simp; rw [h_v14, h_v3, h_v6, h_a0, h_a3, h_a4]
  dsimp only [val_main_v46, val_main_v45, val_main_v44, val_main_v43, val_main_v42, val_main_v41, val_main_cst_8, val_main_v40, val_main_v39, val_main_v38, val_main_v37, val_main_v36, val_main_v35, val_main_v34, val_main_v33, val_main_c_7, val_main_v32, val_main_v31, val_main_c_6, val_main_v30, val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  first | done | rfl
set_option maxHeartbeats 16000000 in
theorem pieceC_main_v48 (h_v14 : V (Proc.devRef .tc main_v14) = val_main_v14 (F := Ideal) x1) (h_v3 : V (Proc.devRef .tc main_v3) = val_main_v3 (F := Ideal) x1) (h_v6 : V (Proc.devRef .tc main_v6) = val_main_v6 (F := Ideal) x1)
    (h_a0 : V (Proc.devRef .tc main_arg0) = x0) (h_a3 : V (Proc.devRef .tc main_arg3) = x3) (h_a4 : V (Proc.devRef .tc main_arg4) = x4) :
    after pieceC V (Proc.devRef .tc main_v48) = val_main_v48 (F := Ideal) x0 x1 x3 x4 := by
  norm_piece; after_results_simp; rw [h_v14, h_v3, h_v6, h_a0, h_a3, h_a4]
  dsimp only [val_main_v48, val_main_v47, val_main_cst_9, val_main_v46, val_main_v45, val_main_v44, val_main_v43, val_main_v42, val_main_v41, val_main_cst_8, val_main_v40, val_main_v39, val_main_v38, val_main_v37, val_main_v36, val_main_v35, val_main_v34, val_main_v33, val_main_c_7, val_main_v32, val_main_v31, val_main_c_6, val_main_v30, val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  first | done | rfl
set_option maxHeartbeats 16000000 in
theorem pieceC_main_v50 (h_v14 : V (Proc.devRef .tc main_v14) = val_main_v14 (F := Ideal) x1) (h_v3 : V (Proc.devRef .tc main_v3) = val_main_v3 (F := Ideal) x1) (h_v6 : V (Proc.devRef .tc main_v6) = val_main_v6 (F := Ideal) x1)
    (h_a0 : V (Proc.devRef .tc main_arg0) = x0) (h_a3 : V (Proc.devRef .tc main_arg3) = x3) (h_a4 : V (Proc.devRef .tc main_arg4) = x4) :
    after pieceC V (Proc.devRef .tc main_v50) = val_main_v50 (F := Ideal) x0 x1 x3 x4 := by
  norm_piece; after_results_simp; rw [h_v14, h_v3, h_v6, h_a0, h_a3, h_a4]
  dsimp only [val_main_v50, val_main_v49, val_main_cst_10, val_main_v48, val_main_v47, val_main_cst_9, val_main_v46, val_main_v45, val_main_v44, val_main_v43, val_main_v42, val_main_v41, val_main_cst_8, val_main_v40, val_main_v39, val_main_v38, val_main_v37, val_main_v36, val_main_v35, val_main_v34, val_main_v33, val_main_c_7, val_main_v32, val_main_v31, val_main_c_6, val_main_v30, val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  first | done | rfl
theorem pieceC_keeps_main_v3 : after pieceC V (Proc.devRef .tc main_v3) = V (Proc.devRef .tc main_v3) := by
  norm_piece; after_results_simp
theorem pieceC_keeps_main_v6 : after pieceC V (Proc.devRef .tc main_v6) = V (Proc.devRef .tc main_v6) := by
  norm_piece; after_results_simp
theorem pieceC_keeps_main_arg2 : after pieceC V (Proc.devRef .tc main_arg2) = V (Proc.devRef .tc main_arg2) := by
  norm_piece; after_results_simp
theorem pieceC_keeps_main_arg5 : after pieceC V (Proc.devRef .tc main_arg5) = V (Proc.devRef .tc main_arg5) := by
  norm_piece; after_results_simp
theorem pieceC_keeps_main_arg6 : after pieceC V (Proc.devRef .tc main_arg6) = V (Proc.devRef .tc main_arg6) := by
  norm_piece; after_results_simp

/-! ## Piece D -/

set_option maxHeartbeats 4000000 in
theorem pieceD_main_v51 (h_v48 : V (Proc.devRef .tc main_v48) = val_main_v48 (F := Ideal) x0 x1 x3 x4) (h_v46 : V (Proc.devRef .tc main_v46) = val_main_v46 (F := Ideal) x0 x1 x3 x4) (h_v50 : V (Proc.devRef .tc main_v50) = val_main_v50 (F := Ideal) x0 x1 x3 x4) :
    after pieceD V (Proc.devRef .tc main_v51) = val_main_v51 (F := Ideal) x0 x1 x3 x4 := by
  norm_piece; after_results_simp
  rw [toBuf_main_v51, ofBuf_main_v48, ofBuf_main_v46, ofBuf_main_v50]
  rw [h_v48, h_v46, h_v50]
  dsimp only [val_main_v51]
  first | done | rfl
theorem pieceD_keeps_main_v3 : after pieceD V (Proc.devRef .tc main_v3) = V (Proc.devRef .tc main_v3) := by
  norm_piece; after_results_simp
theorem pieceD_keeps_main_v6 : after pieceD V (Proc.devRef .tc main_v6) = V (Proc.devRef .tc main_v6) := by
  norm_piece; after_results_simp
theorem pieceD_keeps_main_v29 : after pieceD V (Proc.devRef .tc main_v29) = V (Proc.devRef .tc main_v29) := by
  norm_piece; after_results_simp
theorem pieceD_keeps_main_arg2 : after pieceD V (Proc.devRef .tc main_arg2) = V (Proc.devRef .tc main_arg2) := by
  norm_piece; after_results_simp
theorem pieceD_keeps_main_arg5 : after pieceD V (Proc.devRef .tc main_arg5) = V (Proc.devRef .tc main_arg5) := by
  norm_piece; after_results_simp
theorem pieceD_keeps_main_arg6 : after pieceD V (Proc.devRef .tc main_arg6) = V (Proc.devRef .tc main_arg6) := by
  norm_piece; after_results_simp

/-! ## Piece E -/

set_option maxHeartbeats 16000000 in
theorem pieceE_main_v91 (h_v51 : V (Proc.devRef .tc main_v51) = val_main_v51 (F := Ideal) x0 x1 x3 x4) (h_v3 : V (Proc.devRef .tc main_v3) = val_main_v3 (F := Ideal) x1) (h_v6 : V (Proc.devRef .tc main_v6) = val_main_v6 (F := Ideal) x1) (h_v29 : V (Proc.devRef .tc main_v29) = val_main_v29 (F := Ideal) x1)
    (h_a5 : V (Proc.devRef .tc main_arg5) = x5) (h_a6 : V (Proc.devRef .tc main_arg6) = x6) (h_a2 : V (Proc.devRef .tc main_arg2) = x2) :
    after pieceE V (Proc.devRef .tc main_v91) = val_main_v91 (F := Ideal) x0 x1 x2 x3 x4 x5 x6 := by
  norm_piece; after_results_simp; rw [h_v51, h_v3, h_v6, h_v29, h_a5, h_a6, h_a2]
  dsimp only [val_main_v91, val_main_v90, val_main_v89, val_main_v88, val_main_cst_20, val_main_v87, val_main_v86, val_main_v85, val_main_v84, val_main_v83, val_main_v82, val_main_cst_19, val_main_v81, val_main_cst_18, val_main_v80, val_main_v79, val_main_v78, val_main_v77, val_main_v76, val_main_cst_17, val_main_v75, val_main_v74, val_main_v73, val_main_cst_16, val_main_v72, val_main_cst_15, val_main_v71, val_main_v70, val_main_v69, val_main_cst_14, val_main_v68, val_main_v67, val_main_v66, val_main_v65, val_main_v64, val_main_v63, val_main_cst_13, val_main_v62, val_main_v61, val_main_v60, val_main_v59, val_main_v58, val_main_v57, val_main_v56, val_main_v55, val_main_c_12, val_main_v54, val_main_v53, val_main_c_11, val_main_v52]
  first | done | rfl

end

/-! ## The whole line -/

section Whole
variable (m : (ℓ : Loc nD τ sig) → Buf (Elt Ideal) ℓ) (c : Dev nD)

/-- The contents after piece A, B, C, D from the launch contents. -/
abbrev atA : Valuation τ sig (Elt Ideal) := after pieceA (launchContents m c)
abbrev atB : Valuation τ sig (Elt Ideal) := after pieceB (atA m c)
abbrev atC : Valuation τ sig (Elt Ideal) := after pieceC (atB m c)
abbrev atD : Valuation τ sig (Elt Ideal) := after pieceD (atC m c)

theorem a_v3 : atA m c (Proc.devRef .tc main_v3) = val_main_v3 (F := Ideal) (m ((c.tc : Thread nD τ).loc main_arg1)) := pieceA_main_v3 (launchContents m c)
theorem a_v6 : atA m c (Proc.devRef .tc main_v6) = val_main_v6 (F := Ideal) (m ((c.tc : Thread nD τ).loc main_arg1)) := pieceA_main_v6 (launchContents m c)
theorem a_v12 : atA m c (Proc.devRef .tc main_v12) = val_main_v12 (F := Ideal) (m ((c.tc : Thread nD τ).loc main_arg1)) := pieceA_main_v12 (launchContents m c)
theorem a_v13 : atA m c (Proc.devRef .tc main_v13) = val_main_v13 (F := Ideal) (m ((c.tc : Thread nD τ).loc main_arg1)) := pieceA_main_v13 (launchContents m c)
theorem a_cst_2 : atA m c (Proc.devRef .tc main_cst_2) = val_main_cst_2 (F := Ideal) := pieceA_main_cst_2 (launchContents m c)
theorem a_arg0 : atA m c (Proc.devRef .tc main_arg0) = (m ((c.tc : Thread nD τ).loc main_arg0)) := pieceA_keeps_main_arg0 (launchContents m c)
theorem a_arg2 : atA m c (Proc.devRef .tc main_arg2) = (m ((c.tc : Thread nD τ).loc main_arg2)) := pieceA_keeps_main_arg2 (launchContents m c)
theorem a_arg3 : atA m c (Proc.devRef .tc main_arg3) = (m ((c.tc : Thread nD τ).loc main_arg3)) := pieceA_keeps_main_arg3 (launchContents m c)
theorem a_arg4 : atA m c (Proc.devRef .tc main_arg4) = (m ((c.tc : Thread nD τ).loc main_arg4)) := pieceA_keeps_main_arg4 (launchContents m c)
theorem a_arg5 : atA m c (Proc.devRef .tc main_arg5) = (m ((c.tc : Thread nD τ).loc main_arg5)) := pieceA_keeps_main_arg5 (launchContents m c)
theorem a_arg6 : atA m c (Proc.devRef .tc main_arg6) = (m ((c.tc : Thread nD τ).loc main_arg6)) := pieceA_keeps_main_arg6 (launchContents m c)

theorem b_v14 : atB m c (Proc.devRef .tc main_v14) = val_main_v14 (F := Ideal) (m ((c.tc : Thread nD τ).loc main_arg1)) := pieceB_main_v14 (atA m c) _ (a_v12 m c) (a_v13 m c) (a_cst_2 m c)
theorem b_v3 : atB m c (Proc.devRef .tc main_v3) = val_main_v3 (F := Ideal) (m ((c.tc : Thread nD τ).loc main_arg1)) := (pieceB_keeps_main_v3 (atA m c)).trans (a_v3 m c)
theorem b_v6 : atB m c (Proc.devRef .tc main_v6) = val_main_v6 (F := Ideal) (m ((c.tc : Thread nD τ).loc main_arg1)) := (pieceB_keeps_main_v6 (atA m c)).trans (a_v6 m c)
theorem b_arg0 : atB m c (Proc.devRef .tc main_arg0) = (m ((c.tc : Thread nD τ).loc main_arg0)) := (pieceB_keeps_main_arg0 (atA m c)).trans (a_arg0 m c)
theorem b_arg2 : atB m c (Proc.devRef .tc main_arg2) = (m ((c.tc : Thread nD τ).loc main_arg2)) := (pieceB_keeps_main_arg2 (atA m c)).trans (a_arg2 m c)
theorem b_arg3 : atB m c (Proc.devRef .tc main_arg3) = (m ((c.tc : Thread nD τ).loc main_arg3)) := (pieceB_keeps_main_arg3 (atA m c)).trans (a_arg3 m c)
theorem b_arg4 : atB m c (Proc.devRef .tc main_arg4) = (m ((c.tc : Thread nD τ).loc main_arg4)) := (pieceB_keeps_main_arg4 (atA m c)).trans (a_arg4 m c)
theorem b_arg5 : atB m c (Proc.devRef .tc main_arg5) = (m ((c.tc : Thread nD τ).loc main_arg5)) := (pieceB_keeps_main_arg5 (atA m c)).trans (a_arg5 m c)
theorem b_arg6 : atB m c (Proc.devRef .tc main_arg6) = (m ((c.tc : Thread nD τ).loc main_arg6)) := (pieceB_keeps_main_arg6 (atA m c)).trans (a_arg6 m c)

theorem c_v29 : atC m c (Proc.devRef .tc main_v29) = val_main_v29 (F := Ideal) (m ((c.tc : Thread nD τ).loc main_arg1)) := pieceC_main_v29 (atB m c) _ (b_v14 m c) (b_v3 m c) (b_v6 m c)
theorem c_v46 : atC m c (Proc.devRef .tc main_v46) = val_main_v46 (F := Ideal) (m ((c.tc : Thread nD τ).loc main_arg0)) (m ((c.tc : Thread nD τ).loc main_arg1)) (m ((c.tc : Thread nD τ).loc main_arg3)) (m ((c.tc : Thread nD τ).loc main_arg4)) :=
  pieceC_main_v46 (atB m c) _ _ _ _ (b_v14 m c) (b_v3 m c) (b_v6 m c) (b_arg0 m c) (b_arg3 m c) (b_arg4 m c)
theorem c_v48 : atC m c (Proc.devRef .tc main_v48) = val_main_v48 (F := Ideal) (m ((c.tc : Thread nD τ).loc main_arg0)) (m ((c.tc : Thread nD τ).loc main_arg1)) (m ((c.tc : Thread nD τ).loc main_arg3)) (m ((c.tc : Thread nD τ).loc main_arg4)) :=
  pieceC_main_v48 (atB m c) _ _ _ _ (b_v14 m c) (b_v3 m c) (b_v6 m c) (b_arg0 m c) (b_arg3 m c) (b_arg4 m c)
theorem c_v50 : atC m c (Proc.devRef .tc main_v50) = val_main_v50 (F := Ideal) (m ((c.tc : Thread nD τ).loc main_arg0)) (m ((c.tc : Thread nD τ).loc main_arg1)) (m ((c.tc : Thread nD τ).loc main_arg3)) (m ((c.tc : Thread nD τ).loc main_arg4)) :=
  pieceC_main_v50 (atB m c) _ _ _ _ (b_v14 m c) (b_v3 m c) (b_v6 m c) (b_arg0 m c) (b_arg3 m c) (b_arg4 m c)
theorem c_v3 : atC m c (Proc.devRef .tc main_v3) = val_main_v3 (F := Ideal) (m ((c.tc : Thread nD τ).loc main_arg1)) := (pieceC_keeps_main_v3 (atB m c)).trans (b_v3 m c)
theorem c_v6 : atC m c (Proc.devRef .tc main_v6) = val_main_v6 (F := Ideal) (m ((c.tc : Thread nD τ).loc main_arg1)) := (pieceC_keeps_main_v6 (atB m c)).trans (b_v6 m c)
theorem c_arg2 : atC m c (Proc.devRef .tc main_arg2) = (m ((c.tc : Thread nD τ).loc main_arg2)) := (pieceC_keeps_main_arg2 (atB m c)).trans (b_arg2 m c)
theorem c_arg5 : atC m c (Proc.devRef .tc main_arg5) = (m ((c.tc : Thread nD τ).loc main_arg5)) := (pieceC_keeps_main_arg5 (atB m c)).trans (b_arg5 m c)
theorem c_arg6 : atC m c (Proc.devRef .tc main_arg6) = (m ((c.tc : Thread nD τ).loc main_arg6)) := (pieceC_keeps_main_arg6 (atB m c)).trans (b_arg6 m c)

theorem d_v51 : atD m c (Proc.devRef .tc main_v51) = val_main_v51 (F := Ideal) (m ((c.tc : Thread nD τ).loc main_arg0)) (m ((c.tc : Thread nD τ).loc main_arg1)) (m ((c.tc : Thread nD τ).loc main_arg3)) (m ((c.tc : Thread nD τ).loc main_arg4)) := pieceD_main_v51 (atC m c) _ _ _ _ (c_v48 m c) (c_v46 m c) (c_v50 m c)
theorem d_v3 : atD m c (Proc.devRef .tc main_v3) = val_main_v3 (F := Ideal) (m ((c.tc : Thread nD τ).loc main_arg1)) := (pieceD_keeps_main_v3 (atC m c)).trans (c_v3 m c)
theorem d_v6 : atD m c (Proc.devRef .tc main_v6) = val_main_v6 (F := Ideal) (m ((c.tc : Thread nD τ).loc main_arg1)) := (pieceD_keeps_main_v6 (atC m c)).trans (c_v6 m c)
theorem d_v29 : atD m c (Proc.devRef .tc main_v29) = val_main_v29 (F := Ideal) (m ((c.tc : Thread nD τ).loc main_arg1)) := (pieceD_keeps_main_v29 (atC m c)).trans (c_v29 m c)
theorem d_arg2 : atD m c (Proc.devRef .tc main_arg2) = (m ((c.tc : Thread nD τ).loc main_arg2)) := (pieceD_keeps_main_arg2 (atC m c)).trans (c_arg2 m c)
theorem d_arg5 : atD m c (Proc.devRef .tc main_arg5) = (m ((c.tc : Thread nD τ).loc main_arg5)) := (pieceD_keeps_main_arg5 (atC m c)).trans (c_arg5 m c)
theorem d_arg6 : atD m c (Proc.devRef .tc main_arg6) = (m ((c.tc : Thread nD τ).loc main_arg6)) := (pieceD_keeps_main_arg6 (atC m c)).trans (c_arg6 m c)

/-- The result buffer after all the operations, from the launch contents: the last stage of the arguments. -/
theorem result_eq : after line (launchContents m c) (Proc.devRef .tc main_v91)
      = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (after_line (launchContents m c)) (Proc.devRef .tc main_v91)).trans
    (pieceE_main_v91 (atD m c) _ _ _ _ _ _ _ (d_v51 m c) (d_v3 m c) (d_v6 m c) (d_v29 m c) (d_arg5 m c) (d_arg6 m c) (d_arg2 m c))

end Whole

set_option maxHeartbeats 46800000 in
/-- Every weakly fair execution of the reference terminates with the result at the last stage of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v91).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.Reference

end
-- ==== Proof.lean ====
/-
  A two-layer graph convolution with mean pooling and a softmax, against its plain reference.

  Both programs compute, on the extended reals: the edge lists with a self loop per node; the degree of each node and
  `norm (e) = deg^(-1/2) (src e) · deg^(-1/2) (dst e)`; for each layer the dense product `h = X · W`, the messages
  `h (src e) · norm (e)` summed into the rows `dst e`, and the bias; between the layers the leaky rectifier; then the
  mean of the rows of each graph and a softmax over the four classes. The kernel program computes the two dense
  products and the bias-plus-rectifier in three pipelined regions, ten row blocks of 10000 rows each, its operands
  passed through a narrower float format first, and leaves everything else to host operations that are, line for
  line, the reference's. At the exact instance a change of float format is the identity and a product into a zero
  accumulator is the plain sum over the contracted axis, so each region's output array is, entry by entry, the
  reference's `dot_general` (or its add, compare, multiply and select): the two programs apply the same operations, in
  the same order, to the same values, and the equality of the results needs no law of the extended reals and never
  uses that the inputs are finite.

  The modules: `KernelRun` (the kernel program's run with the result buffer named by the last boundary's contents);
  `Layer1Product`, `Activation`, `Layer2Product` (each region's output array as one whole-array function of its operand
  arrays); `HostStretches` (the host lines between the regions, read through the reference's stage functions);
  `StageLaws` (the three whole-array functions are the reference's stages); `Walk` (the boundaries walked from the
  launch to the return); `RefValue` (the reference's run, its result the last stage of the arguments).
-/
import proofs.«172802_j87187836109058_1_alg».proof.Defs
import proofs.«172802_j87187836109058_1_alg».proof.Proof.Gen.Kernel
import proofs.«172802_j87187836109058_1_alg».proof.Proof.Gen.Kernel.Frame
import proofs.«172802_j87187836109058_1_alg».proof.Proof.Gen.KernelIdeal
import proofs.«172802_j87187836109058_1_alg».proof.Proof.Gen.KernelIdeal.Frame
import proofs.«172802_j87187836109058_1_alg».proof.Proof.Gen.ReferenceIdeal
import proofs.«172802_j87187836109058_1_alg».proof.Proof.Gen.Pre_finite_inputs
import proofs.«172802_j87187836109058_1_alg».proof.Proof.KernelRun
import proofs.«172802_j87187836109058_1_alg».proof.Proof.Walk
import proofs.«172802_j87187836109058_1_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.Gcn.Reference.run m ρ)

/-- The idealization rewrote no operation. -/
theorem preserves : Cert.preserves_Kernel_KernelIdeal := trivial

/-- From memories that agree on the arguments both programs end with the reference's last stage of the arguments in
    their result buffers. -/
theorem algebraic : Cert.algebraic_KernelIdeal_ReferenceIdeal := by
  intro m ρ m' ρ' _ hagree
  refine ⟨fun c => Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.Gcn.Walk.result m ρ c), (h c).2⟩)
      (Cert.Gcn.KernelRun.run (F := Ideal) m ρ)
  · refine (θ_run Cert.ReferenceIdeal.defs _ _).mono (fun r h c => ⟨(h c).1.trans ?_, (h c).2⟩) (Cert.Gcn.Reference.run m' ρ')
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
